-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S1024x4096 : Shape := ⟨2, ![1024, 4096]⟩
abbrev S1024x64 : Shape := ⟨2, ![1024, 64]⟩
abbrev S1024 : Shape := ⟨1, ![1024]⟩
abbrev S1024x1 : Shape := ⟨2, ![1024, 1]⟩

abbrev nBuf : Space → Nat
  | .hbm => 5
  | .vmem => 4
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S4096x64, .bf16⟩
  | .hbm, ⟨4, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S4096x64, .bf16⟩
  | .local _ .vmem, ⟨3, _⟩ => ⟨S32768x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c1024_i32 : BitVec 32 := 1024#32
  let v10 : BitVec 32 := Scalar.muli arg0 c1024_i32
  let v11 : Index := Scalar.indexCast v10
  let c0_4 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S64x4096_S4096x64_1_0 : S64x4096.Transposes [1, 0] S4096x64
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S1024x64_S1024 : S1024x64.Reduces [1] S1024
  shapeCasts_S1024_S1024x1 : S1024.ShapeCasts S1024x1
  broadcasts_S1024x1_S1024x64 : S1024x1.Broadcasts S1024x64
  h_S1024x64 : 0 < S1024x64.numel
  dot_S1024x4096_S4096x64_S1024x64_1_0_0_1_n_n_wf : DotDims.WF S1024x4096 S4096x64 S1024x64 [1] [0] [0] [1] [] []
  hrank0 : 0 < grid0.rank
  k0_off1_inb : ∀ i : grid0.Coords, ∀ a, (k0_off1 i) a + S1024x64.size a ≤ S32768x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32768x64.size a ≤ S32768x64.size a
  hwx0_2 : ∀ i : grid0.Coords, EltTy.bits .f32 = 32 ∨ (Rect.block (s := S32768x64) S32768x64.size (cc0_transform_2 i) (hinb0_2 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32768x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩

abbrev nBuf : Space → Nat
  | .hbm => 18
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x64, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x64, .f32⟩
  | .hbm, ⟨17, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x4096_S4096x64_1_0 : S64x4096.Transposes [1, 0] S4096x64
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.KernelBody.lean ====
/-
  The router kernel's body on whole staging memrefs, with the output's buffer NAMED.

  At the grid point with coordinate `i` the body reads the point's block of token rows `x` ([1024, 4096]) and the
  whole transposed weight matrix `w` ([4096, 64]), computes the 1024 rows of router weights of those tokens (the
  payload, a function of `x` and `w` alone) and stores them into rows [1024·i, 1024·i + 1024) of the [32768, 64]
  output buffer, which stays resident across all the points. Every other row of the buffer is left as it was
  found. So what the body leaves there is a function `left` of what it found `y` and of the payload: the payload
  on the point's rows, `y` elsewhere.
-/
import proofs.«171637_g27230092657639_retrytranche2_103_18_alg».proof.Proof.Gen.Kernel.Frame
import proofs.«171637_g27230092657639_retrytranche2_103_18_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output buffer after a store of 1024 whole rows `p` at row `o` over contents `y`: row `o + r` holds row `r` of
    `p`, every row outside [o, o + 1024) what `y` held. -/
def left (o : ℕ) (y : Vec F S32768x64 .f32) (p : Vec F S1024x64 .f32) : Vec F S32768x64 .f32 := fun j =>
  if h : o ≤ (j (0 : Fin 2)).val ∧ (j (0 : Fin 2)).val < o + 1024 then
    p (Rect.unitLocal (s := S32768x64) (off := ![o, 0]) (size := S1024x64.size) j (Rect.unit_rows_mem j rfl rfl h))
  else y j

/-- A row of the stored band reads the payload's row. -/
theorem left_of_mem (o : ℕ) (y : Vec F S32768x64 .f32) (p : Vec F S1024x64 .f32) (j : S32768x64.Idx) (x : S1024x64.Idx)
    (h0 : (j (0 : Fin 2)).val = o + (x (0 : Fin 2)).val) (h1 : (j (1 : Fin 2)).val = (x (1 : Fin 2)).val) :
    left o y p j = p x := by
  have hx := (x (0 : Fin 2)).isLt
  have h : o ≤ (j (0 : Fin 2)).val ∧ (j (0 : Fin 2)).val < o + 1024 := ⟨by omega, by
    have : (x (0 : Fin 2)).val < 1024 := hx
    omega⟩
  unfold left
  rw [dif_pos h]
  congr 1
  funext a
  apply Fin.ext
  rw [Rect.unitLocal_val]
  match a with
  | ⟨0, _⟩ => show (j (0 : Fin 2)).val - o = (x (0 : Fin 2)).val; omega
  | ⟨1, _⟩ => show (j (1 : Fin 2)).val - 0 = (x (1 : Fin 2)).val; omega

/-- A row outside the stored band reads what was there. -/
theorem left_of_not_mem (o : ℕ) (y : Vec F S32768x64 .f32) (p : Vec F S1024x64 .f32) (j : S32768x64.Idx)
    (h : (j (0 : Fin 2)).val < o ∨ o + 1024 ≤ (j (0 : Fin 2)).val) : left o y p j = y j := by
  unfold left
  rw [dif_neg (by omega)]

theorem hz4096 : (![0, 0] : Fin S1024x4096.rank → Nat) = fun _ => 0 := by
  funext a; match a with | ⟨0, _⟩ => rfl | ⟨1, _⟩ => rfl
theorem hz64 : (![0, 0] : Fin S4096x64.rank → Nat) = fun _ => 0 := by
  funext a; match a with | ⟨0, _⟩ => rfl | ⟨1, _⟩ => rfl

set_option maxHeartbeats 1000000 in
/-- The body's triple: with the inputs' memrefs at `x0`, `x1` and the output's at `y`, the body runs to the
    continuation holding the inputs' as they were and the output's at `left` of the point's rows. -/
theorem body_run (c : Dev nD) (i : grid0.Coords) (arg1 : Memref sig .tc .vmem S1024x4096 .f32) (harg1 : arg1.IsWhole) (arg2 : Memref sig .tc .vmem S4096x64 .bf16) (harg2 : arg2.IsWhole) (arg3 : Memref sig .tc .vmem S32768x64 .f32) (harg3 : arg3.IsWhole)
    (x0 : Vec F S1024x4096 .f32) (x1 : Vec F S4096x64 .bf16) (y : Vec F S32768x64 .f32) :
      ∀ (E : Set ℕ) (K : PUnit → sProp 𝕄),
        iprop(owns (c : Thread nD τ) arg1 fullShare x0 ∗ owns (c : Thread nD τ) arg2 fullShare x1 ∗ owns (c : Thread nD τ) arg3 fullShare y
            ∗ (iprop(owns (c : Thread nD τ) arg1 fullShare x0 ∗ owns (c : Thread nD τ) arg2 fullShare x1
                ∗ owns (c : Thread nD τ) arg3 fullShare (left (1024 * (i 0).val) y (k0_pay1 x0 x1))) -∗ K ⟨⟩))
          ⊢ wp frame (wpE (defs₀ (F := F)) Variants.none c none) E (cc0__router_kernel i arg1 harg1 arg2 harg2 arg3 harg3) K := by
    intro E K
    simp only [cc0__router_kernel_eq_skeleton]; unfold cc0__router_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    funext j
    simp only [View.readAt_eq_ld, harg1.read_unread, harg2.read_unread, View.ld_unit_zero (S := S1024x4096) hz4096,
      View.ld_unit_zero (S := S4096x64) hz64]
    by_cases h : 1024 * (i 0).val ≤ (j (0 : Fin 2)).val ∧ (j (0 : Fin 2)).val < 1024 * (i 0).val + 1024
    · have hm := Rect.unit_rows_mem (size := S1024x64.size) j rfl rfl h
      let x : S1024x64.Idx := Rect.unitLocal (s := S32768x64) (off := ![1024 * (i 0).val, 0]) (size := S1024x64.size) j hm
      have hx0 : (j (0 : Fin 2)).val = 1024 * (i 0).val + (x (0 : Fin 2)).val := by
        show _ = _ + ((j (0 : Fin 2)).val - 1024 * (i 0).val); omega
      have hx1 : (j (1 : Fin 2)).val = (x (1 : Fin 2)).val := by
        show _ = (j (1 : Fin 2)).val - 0; omega
      rw [left_of_mem (1024 * (i 0).val) y _ j x hx0 hx1]
      exact View.read_writes_cons_rows_of_mem arg3.view (harg3.unread y) (k0_off1_inb i) _ [] j x (k0_off1_eq i) hx0 hx1
    · rw [left_of_not_mem _ _ _ _ (by omega)]
      rw [View.read_writes_cons_rows_of_not_mem arg3.view (harg3.unread y) (k0_off1_inb i) _ [] j (k0_off1_eq i) (W := 1024) rfl (by omega)]
      rw [View.writes_nil, harg3.read_unread]

end Cert.Kernel.Body

end
-- ==== Proof.KernelData.lean ====
/-
  The pipeline's proof data and the frame of the router kernel.

  The pipeline hands the body, at each of the 32 grid points, the point's block of token rows (window 0, fetched
  at every point), the whole transposed weight matrix (window 1, fetched once and then left in place) and the
  output's staging buffer (window 2: the whole [32768, 64] array, resident across the points and written back
  once, after the last point). What the output's buffer holds when the kernel starts is not known, and each
  point overwrites only its own 1024 rows: so what the body leaves there cannot be named point by point. It is
  CONSTRAINED instead, by a relation between what the body found (`Y`) and what it leaves (`X`): `X` is `Y` with the
  point's rows overwritten by the payload of the point's input blocks. The two inputs are named: their buffers
  hold their blocks before and after the body.
-/
import proofs.«171637_g27230092657639_retrytranche2_103_18_alg».proof.Proof.KernelBody

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The exact part: the arrays as the region finds them; each input's buffer at its block after the body; the
    output's buffer not named here (its relation is `outRel` below). -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- The rows of router weights point `t` computes: the payload of its two input blocks. -/
def rowsAt (c : Dev nD) (t : Fin cfg0.N) : Vec F S1024x64 .f32 := k0_pay1 (iblk m c 0 t) (iblk m c 1 t)

/-- What the body may leave in the output's buffer at point `t`, having found `Y`: `Y` with rows
    [1024·t, 1024·t + 1024) overwritten by the point's rows of weights. -/
def outRel (c : Dev nD) (t : Fin cfg0.N) (Y X : (cfg0.win 2).block.Idx → Elt F (cfg0.win 2).elt) : Prop :=
  X = left (1024 * (grid0.coords t 0).val) Y (rowsAt m c t)

/-- Only the output window's relation is stated by hand. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => some (outRel m c)

/-- The proof data: the inputs named, the output constrained. -/
def rdat (c : Dev nD) : Pipeline.RDat τ (Elt F) Unit ℕ (UR sig nD τ) ℕ cfg0 c := (dat m c).toR.override (ovr m c)

theorem A_eq (c : Dev nD) (w : Fin cfg0.W) : (rdat m c).A w = V m c (Pipeline.arrRef spec0 w) := rfl

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]

/-- Each input's current staging buffer holds its block at every point, fetched there or not. -/
theorem found0_0 (c : Dev nD) (t : Fin cfg0.N) (Y : (cfg0.win 0).block.Idx → Elt F (cfg0.win 0).elt)
    (h : (rdat m c).Finds 0 t Y) : Y = iblk m c 0 t := by
  obtain ⟨d, rfl⟩ := (dat m c).toR_finds 0 t Y (((dat m c).toR.override_finds (ovr := ovr m c) (w := 0) rfl t Y).mp h)
  exact before0_0_of m (dat m c) rfl (after0_0 m c) t d
theorem found0_1 (c : Dev nD) (t : Fin cfg0.N) (Y : (cfg0.win 1).block.Idx → Elt F (cfg0.win 1).elt)
    (h : (rdat m c).Finds 1 t Y) : Y = iblk m c 1 t := by
  obtain ⟨d, rfl⟩ := (dat m c).toR_finds 1 t Y (((dat m c).toR.override_finds (ovr := ovr m c) (w := 1) rfl t Y).mp h)
  exact before0_1_of m (dat m c) rfl (after0_1 m c) t d

/-- The relations, window by window. -/
theorem rel0_0 (c : Dev nD) (t : Fin cfg0.N) (Y : (cfg0.win 0).block.Idx → Elt F (cfg0.win 0).elt) :
    (rdat m c).after 0 t Y (iblk m c 0 t) := by
  show (dat m c).Leaves 0 t (iblk m c 0 t)
  unfold Dat.Leaves
  exact (after0_0 m c t).symm
theorem rel0_1 (c : Dev nD) (t : Fin cfg0.N) (Y : (cfg0.win 1).block.Idx → Elt F (cfg0.win 1).elt) :
    (rdat m c).after 1 t Y (iblk m c 1 t) := by
  show (dat m c).Leaves 1 t (iblk m c 1 t)
  unfold Dat.Leaves
  exact (after0_1 m c t).symm
theorem rel0_2 (c : Dev nD) (t : Fin cfg0.N) (Y X : (cfg0.win 2).block.Idx → Elt F (cfg0.win 2).elt) :
    (rdat m c).after 2 t Y X ↔ X = left (1024 * (grid0.coords t 0).val) Y (rowsAt m c t) := Iff.rfl

/-! ## The body obligation -/

/-- At every point, for whatever the windows' buffers may then hold: the inputs hold their blocks, so the body's
    triple applies; the invariant and the core's tallies pass through unread. -/
theorem body_obligation (c : Dev nD) : (rdat (F := F) m c).BodyObligation (defs₀ (F := F)) Variants.none () Set.univ := fun t Y hY => by
  have h0 := found0_0 m c t (Y 0) (hY 0)
  have h1 := found0_1 m c t (Y 1) (hY 1)
  rw [bigSep_W0, bigSep_W0, h0, h1]
  rw [show (rdat m c).Φ t.succ = (rdat m c).Φ t.castSucc from rfl,
    show (rdat m c).owesAt () t.succ = (rdat m c).owesAt () t.castSucc from rfl]
  show _ ⊢ wp frame (wpE (defs₀ (F := F)) Variants.none c none) Set.univ (bodyAt0 t) _
  unfold bodyAt0
  iintro ⟨HΦ, Ho, H0, H1, H2⟩
  iapply ((body_run c (grid0.coords t) _ _ _ _ _ _ (iblk m c 0 t) (iblk m c 1 t) (Y 2)) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact rel0_0 m c t _
    iexact H0
  isplitl [H1]
  · iexists _; isplitr; · ipureintro; exact rel0_1 m c t _
    iexact H1
  iexists _; isplitr; · ipureintro; exact (rel0_2 m c t _ _).mpr rfl
  iexact H2

/-! ## The run and the frame -/

set_option backward.isDefEq.respectTransparency.types false in
/-- Every weakly fair execution of @main terminates; in every final state each input array of the pipeline is
    unchanged, the output's array holds some contents the relation allows after the one write-back, and every other
    unscoped buffer holds its region-entry contents. -/
theorem run_main : θ_run defs (onTc (τ := τ) (main (F := F))) (s₀ m ρ) (Pipeline.RDat.FramePost (cfgs 0) (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The frame: the run terminates without a fault and the two argument arrays end as launched — the token array,
    an input of the pipeline, is never written back; the weight array bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Eq.mp (congrFun ((rdat m c).ArrAt_in 0 rfl _) _) ((h c).1 0)).trans (V_main_arg0 m c),
      ((h c).2 main_arg1 (Pipeline.mem_restRefs_of main_arg1 (by decide) (by decide))).trans (V_main_arg1 m c)⟩) (run_main m ρ)

end Cert.Kernel.Body

end
-- ==== Proof.KernelIdealBody.lean ====
/-
  The router kernel's body on whole staging memrefs, with the output's buffer NAMED.

  At the grid point with coordinate `i` the body reads the point's block of token rows `x` ([1024, 4096]) and the
  whole transposed weight matrix `w` ([4096, 64]), computes the 1024 rows of router weights of those tokens (the
  payload, a function of `x` and `w` alone) and stores them into rows [1024·i, 1024·i + 1024) of the [32768, 64]
  output buffer, which stays resident across all the points. Every other row of the buffer is left as it was
  found. So what the body leaves there is a function `left` of what it found `y` and of the payload: the payload
  on the point's rows, `y` elsewhere.
-/
import proofs.«171637_g27230092657639_retrytranche2_103_18_alg».proof.Proof.Gen.KernelIdeal.Frame
import proofs.«171637_g27230092657639_retrytranche2_103_18_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output buffer after a store of 1024 whole rows `p` at row `o` over contents `y`: row `o + r` holds row `r` of
    `p`, every row outside [o, o + 1024) what `y` held. -/
def left (o : ℕ) (y : Vec F S32768x64 .f32) (p : Vec F S1024x64 .f32) : Vec F S32768x64 .f32 := fun j =>
  if h : o ≤ (j (0 : Fin 2)).val ∧ (j (0 : Fin 2)).val < o + 1024 then
    p (Rect.unitLocal (s := S32768x64) (off := ![o, 0]) (size := S1024x64.size) j (Rect.unit_rows_mem j rfl rfl h))
  else y j

/-- A row of the stored band reads the payload's row. -/
theorem left_of_mem (o : ℕ) (y : Vec F S32768x64 .f32) (p : Vec F S1024x64 .f32) (j : S32768x64.Idx) (x : S1024x64.Idx)
    (h0 : (j (0 : Fin 2)).val = o + (x (0 : Fin 2)).val) (h1 : (j (1 : Fin 2)).val = (x (1 : Fin 2)).val) :
    left o y p j = p x := by
  have hx := (x (0 : Fin 2)).isLt
  have h : o ≤ (j (0 : Fin 2)).val ∧ (j (0 : Fin 2)).val < o + 1024 := ⟨by omega, by
    have : (x (0 : Fin 2)).val < 1024 := hx
    omega⟩
  unfold left
  rw [dif_pos h]
  congr 1
  funext a
  apply Fin.ext
  rw [Rect.unitLocal_val]
  match a with
  | ⟨0, _⟩ => show (j (0 : Fin 2)).val - o = (x (0 : Fin 2)).val; omega
  | ⟨1, _⟩ => show (j (1 : Fin 2)).val - 0 = (x (1 : Fin 2)).val; omega

/-- A row outside the stored band reads what was there. -/
theorem left_of_not_mem (o : ℕ) (y : Vec F S32768x64 .f32) (p : Vec F S1024x64 .f32) (j : S32768x64.Idx)
    (h : (j (0 : Fin 2)).val < o ∨ o + 1024 ≤ (j (0 : Fin 2)).val) : left o y p j = y j := by
  unfold left
  rw [dif_neg (by omega)]

theorem hz4096 : (![0, 0] : Fin S1024x4096.rank → Nat) = fun _ => 0 := by
  funext a; match a with | ⟨0, _⟩ => rfl | ⟨1, _⟩ => rfl
theorem hz64 : (![0, 0] : Fin S4096x64.rank → Nat) = fun _ => 0 := by
  funext a; match a with | ⟨0, _⟩ => rfl | ⟨1, _⟩ => rfl

set_option maxHeartbeats 1000000 in
/-- The body's triple: with the inputs' memrefs at `x0`, `x1` and the output's at `y`, the body runs to the
    continuation holding the inputs' as they were and the output's at `left` of the point's rows. -/
theorem body_run (c : Dev nD) (i : grid0.Coords) (arg1 : Memref sig .tc .vmem S1024x4096 .f32) (harg1 : arg1.IsWhole) (arg2 : Memref sig .tc .vmem S4096x64 .bf16) (harg2 : arg2.IsWhole) (arg3 : Memref sig .tc .vmem S32768x64 .f32) (harg3 : arg3.IsWhole)
    (x0 : Vec F S1024x4096 .f32) (x1 : Vec F S4096x64 .bf16) (y : Vec F S32768x64 .f32) :
      ∀ (E : Set ℕ) (K : PUnit → sProp 𝕄),
        iprop(owns (c : Thread nD τ) arg1 fullShare x0 ∗ owns (c : Thread nD τ) arg2 fullShare x1 ∗ owns (c : Thread nD τ) arg3 fullShare y
            ∗ (iprop(owns (c : Thread nD τ) arg1 fullShare x0 ∗ owns (c : Thread nD τ) arg2 fullShare x1
                ∗ owns (c : Thread nD τ) arg3 fullShare (left (1024 * (i 0).val) y (k0_pay1 x0 x1))) -∗ K ⟨⟩))
          ⊢ wp frame (wpE (defs₀ (F := F)) Variants.none c none) E (cc0__router_kernel i arg1 harg1 arg2 harg2 arg3 harg3) K := by
    intro E K
    simp only [cc0__router_kernel_eq_skeleton]; unfold cc0__router_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    funext j
    simp only [View.readAt_eq_ld, harg1.read_unread, harg2.read_unread, View.ld_unit_zero (S := S1024x4096) hz4096,
      View.ld_unit_zero (S := S4096x64) hz64]
    by_cases h : 1024 * (i 0).val ≤ (j (0 : Fin 2)).val ∧ (j (0 : Fin 2)).val < 1024 * (i 0).val + 1024
    · have hm := Rect.unit_rows_mem (size := S1024x64.size) j rfl rfl h
      let x : S1024x64.Idx := Rect.unitLocal (s := S32768x64) (off := ![1024 * (i 0).val, 0]) (size := S1024x64.size) j hm
      have hx0 : (j (0 : Fin 2)).val = 1024 * (i 0).val + (x (0 : Fin 2)).val := by
        show _ = _ + ((j (0 : Fin 2)).val - 1024 * (i 0).val); omega
      have hx1 : (j (1 : Fin 2)).val = (x (1 : Fin 2)).val := by
        show _ = (j (1 : Fin 2)).val - 0; omega
      rw [left_of_mem (1024 * (i 0).val) y _ j x hx0 hx1]
      exact View.read_writes_cons_rows_of_mem arg3.view (harg3.unread y) (k0_off1_inb i) _ [] j x (k0_off1_eq i) hx0 hx1
    · rw [left_of_not_mem _ _ _ _ (by omega)]
      rw [View.read_writes_cons_rows_of_not_mem arg3.view (harg3.unread y) (k0_off1_inb i) _ [] j (k0_off1_eq i) (W := 1024) rfl (by omega)]
      rw [View.writes_nil, harg3.read_unread]

end Cert.KernelIdeal.Body

end
-- ==== Proof.KernelIdealData.lean ====
/-
  The pipeline's proof data and the frame of the router kernel.

  The pipeline hands the body, at each of the 32 grid points, the point's block of token rows (window 0, fetched
  at every point), the whole transposed weight matrix (window 1, fetched once and then left in place) and the
  output's staging buffer (window 2: the whole [32768, 64] array, resident across the points and written back
  once, after the last point). What the output's buffer holds when the kernel starts is not known, and each
  point overwrites only its own 1024 rows: so what the body leaves there cannot be named point by point. It is
  CONSTRAINED instead, by a relation between what the body found (`Y`) and what it leaves (`X`): `X` is `Y` with the
  point's rows overwritten by the payload of the point's input blocks. The two inputs are named: their buffers
  hold their blocks before and after the body.
-/
import proofs.«171637_g27230092657639_retrytranche2_103_18_alg».proof.Proof.KernelIdealBody

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The exact part: the arrays as the region finds them; each input's buffer at its block after the body; the
    output's buffer not named here (its relation is `outRel` below). -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- The rows of router weights point `t` computes: the payload of its two input blocks. -/
def rowsAt (c : Dev nD) (t : Fin cfg0.N) : Vec F S1024x64 .f32 := k0_pay1 (iblk m c 0 t) (iblk m c 1 t)

/-- What the body may leave in the output's buffer at point `t`, having found `Y`: `Y` with rows
    [1024·t, 1024·t + 1024) overwritten by the point's rows of weights. -/
def outRel (c : Dev nD) (t : Fin cfg0.N) (Y X : (cfg0.win 2).block.Idx → Elt F (cfg0.win 2).elt) : Prop :=
  X = left (1024 * (grid0.coords t 0).val) Y (rowsAt m c t)

/-- Only the output window's relation is stated by hand. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => some (outRel m c)

/-- The proof data: the inputs named, the output constrained. -/
def rdat (c : Dev nD) : Pipeline.RDat τ (Elt F) Unit ℕ (UR sig nD τ) ℕ cfg0 c := (dat m c).toR.override (ovr m c)

theorem A_eq (c : Dev nD) (w : Fin cfg0.W) : (rdat m c).A w = V m c (Pipeline.arrRef spec0 w) := rfl

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]

/-- Each input's current staging buffer holds its block at every point, fetched there or not. -/
theorem found0_0 (c : Dev nD) (t : Fin cfg0.N) (Y : (cfg0.win 0).block.Idx → Elt F (cfg0.win 0).elt)
    (h : (rdat m c).Finds 0 t Y) : Y = iblk m c 0 t := by
  obtain ⟨d, rfl⟩ := (dat m c).toR_finds 0 t Y (((dat m c).toR.override_finds (ovr := ovr m c) (w := 0) rfl t Y).mp h)
  exact before0_0_of m (dat m c) rfl (after0_0 m c) t d
theorem found0_1 (c : Dev nD) (t : Fin cfg0.N) (Y : (cfg0.win 1).block.Idx → Elt F (cfg0.win 1).elt)
    (h : (rdat m c).Finds 1 t Y) : Y = iblk m c 1 t := by
  obtain ⟨d, rfl⟩ := (dat m c).toR_finds 1 t Y (((dat m c).toR.override_finds (ovr := ovr m c) (w := 1) rfl t Y).mp h)
  exact before0_1_of m (dat m c) rfl (after0_1 m c) t d

/-- The relations, window by window. -/
theorem rel0_0 (c : Dev nD) (t : Fin cfg0.N) (Y : (cfg0.win 0).block.Idx → Elt F (cfg0.win 0).elt) :
    (rdat m c).after 0 t Y (iblk m c 0 t) := by
  show (dat m c).Leaves 0 t (iblk m c 0 t)
  unfold Dat.Leaves
  exact (after0_0 m c t).symm
theorem rel0_1 (c : Dev nD) (t : Fin cfg0.N) (Y : (cfg0.win 1).block.Idx → Elt F (cfg0.win 1).elt) :
    (rdat m c).after 1 t Y (iblk m c 1 t) := by
  show (dat m c).Leaves 1 t (iblk m c 1 t)
  unfold Dat.Leaves
  exact (after0_1 m c t).symm
theorem rel0_2 (c : Dev nD) (t : Fin cfg0.N) (Y X : (cfg0.win 2).block.Idx → Elt F (cfg0.win 2).elt) :
    (rdat m c).after 2 t Y X ↔ X = left (1024 * (grid0.coords t 0).val) Y (rowsAt m c t) := Iff.rfl

/-! ## The body obligation -/

/-- At every point, for whatever the windows' buffers may then hold: the inputs hold their blocks, so the body's
    triple applies; the invariant and the core's tallies pass through unread. -/
theorem body_obligation (c : Dev nD) : (rdat (F := F) m c).BodyObligation (defs₀ (F := F)) Variants.none () Set.univ := fun t Y hY => by
  have h0 := found0_0 m c t (Y 0) (hY 0)
  have h1 := found0_1 m c t (Y 1) (hY 1)
  rw [bigSep_W0, bigSep_W0, h0, h1]
  rw [show (rdat m c).Φ t.succ = (rdat m c).Φ t.castSucc from rfl,
    show (rdat m c).owesAt () t.succ = (rdat m c).owesAt () t.castSucc from rfl]
  show _ ⊢ wp frame (wpE (defs₀ (F := F)) Variants.none c none) Set.univ (bodyAt0 t) _
  unfold bodyAt0
  iintro ⟨HΦ, Ho, H0, H1, H2⟩
  iapply ((body_run c (grid0.coords t) _ _ _ _ _ _ (iblk m c 0 t) (iblk m c 1 t) (Y 2)) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact rel0_0 m c t _
    iexact H0
  isplitl [H1]
  · iexists _; isplitr; · ipureintro; exact rel0_1 m c t _
    iexact H1
  iexists _; isplitr; · ipureintro; exact (rel0_2 m c t _ _).mpr rfl
  iexact H2

/-! ## The run and the frame -/

set_option backward.isDefEq.respectTransparency.types false in
/-- Every weakly fair execution of @main terminates; in every final state each input array of the pipeline is
    unchanged, the output's array holds some contents the relation allows after the one write-back, and every other
    unscoped buffer holds its region-entry contents. -/
theorem run_main : θ_run defs (onTc (τ := τ) (main (F := F))) (s₀ m ρ) (Pipeline.RDat.FramePost (cfgs 0) (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The frame: the run terminates without a fault and the two argument arrays end as launched — the token array,
    an input of the pipeline, is never written back; the weight array bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Eq.mp (congrFun ((rdat m c).ArrAt_in 0 rfl _) _) ((h c).1 0)).trans (V_main_arg0 m c),
      ((h c).2 main_arg1 (Pipeline.mem_restRefs_of main_arg1 (by decide) (by decide))).trans (V_main_arg1 m c)⟩) (run_main m ρ)

end Cert.KernelIdeal.Body

end
-- ==== Proof.KernelIdealValue.lean ====
/-
  The output array after the run, as one function of the argument arrays' blocks.

  Row `r` of the [32768, 64] result belongs to grid point `r / 1024`, which computes it as row `r % 1024` of its
  1024 rows of weights. The output's staging buffer is never fetched into and is written back only after the last
  point, so what a point finds there is what the point before it left. By induction on the point: whatever the
  buffer held at the start, before point `t` its rows below 1024·t already hold the final rows, since each point
  overwrites exactly its own band and leaves every other row alone. After point 31 every row is final, and the one
  write-back copies the whole buffer over the whole array.
-/
import proofs.«171637_g27230092657639_retrytranche2_103_18_alg».proof.Proof.KernelIdealData
import Idealize.ShloMosaic.Lib.ValueIdx

set_option maxRecDepth 16384

noncomputable section

namespace Cert.KernelIdeal.Body

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is never fetched. -/
theorem fetch0_2 : ∀ t : Fin cfg0.N, (cfg0.win 2).fetch t = false :=
  (by decide +kernel : ∀ t : Fin grid0.N, win0_2.fetch t = false)

/-- The one grid coordinate of point `t` is `t`. -/
theorem coords0 : ∀ t : Fin cfg0.N, (grid0.coords t 0).val = t.val :=
  (by decide +kernel : ∀ t : Fin grid0.N, (grid0.coords t 0).val = t.val)

/-- The point a row belongs to, and the row's place in that point's band. -/
def pointOf (j : S32768x64.Idx) : Fin cfg0.N :=
  ⟨(j (0 : Fin 2)).val / 1024, by
    have h : (j (0 : Fin 2)).val < 32768 := (j (0 : Fin 2)).isLt
    have : (j (0 : Fin 2)).val / 1024 < 32 := by omega
    exact lt_of_lt_of_eq this N_0.symm⟩
def placeOf (j : S32768x64.Idx) : S1024x64.Idx :=
  ix2 (⟨(j (0 : Fin 2)).val % 1024, Nat.mod_lt _ (by norm_num)⟩ : Fin 1024) (⟨(j (1 : Fin 2)).val, (j (1 : Fin 2)).isLt⟩ : Fin 64)

/-- The final contents: each row is its point's row of weights. -/
def result (c : Dev nD) : Vec F S32768x64 .f32 := fun j => rowsAt m c (pointOf j) (placeOf j)

/-- One point's store: if the rows below 1024·t are final before point `t`, the rows below 1024·(t + 1) are final
    after it. -/
theorem step (c : Dev nD) (t : Fin cfg0.N) (Y : Vec F S32768x64 .f32)
    (hY : ∀ j : S32768x64.Idx, (j (0 : Fin 2)).val < 1024 * t.val → Y j = result m c j)
    (j : S32768x64.Idx) (hj : (j (0 : Fin 2)).val < 1024 * (t.val + 1)) :
    left (1024 * (grid0.coords t 0).val) Y (rowsAt m c t) j = result m c j := by
  rw [coords0]
  by_cases h : (j (0 : Fin 2)).val < 1024 * t.val
  · rw [left_of_not_mem _ _ _ _ (Or.inl h)]; exact hY j h
  · have hq : (j (0 : Fin 2)).val / 1024 = t.val := by omega
    have hp : pointOf j = t := Fin.ext hq
    rw [left_of_mem (1024 * t.val) Y _ j (placeOf j)
      (by show (j (0 : Fin 2)).val = 1024 * t.val + (j (0 : Fin 2)).val % 1024; omega) rfl]
    unfold result
    rw [hp]

/-- Before point `t` the buffer's rows below 1024·t are final. -/
theorem finds_rows (c : Dev nD) : ∀ (t : Fin cfg0.N) (Y : (cfg0.win 2).block.Idx → Elt F (cfg0.win 2).elt),
    (rdat m c).Finds 2 t Y → ∀ j : S32768x64.Idx, (j (0 : Fin 2)).val < 1024 * t.val → Y j = result m c j := by
  intro t
  induction hn : t.val using Nat.strong_induction_on generalizing t with
  | _ n ih =>
    subst hn
    intro Y hF j hj
    by_cases ht : t.val = 0
    · rw [ht] at hj; omega
    · have hlt : t.val < 32 := lt_of_lt_of_eq t.isLt N_0
      rcases ((rdat m c).finds_of_pos (fetch0_2 t) ht Y).mp hF with hfl | ⟨Y', hF', hrel⟩
      · exfalso
        have h31 := (flush0_2 _).mp hfl
        have : (t.val - 1) % 32 = 31 := h31
        omega
      · have hY' := ih (t.val - 1) (by omega) ⟨t.val - 1, Nat.lt_of_le_of_lt (Nat.sub_le _ _) t.isLt⟩ rfl Y' hF'
        rw [(rel0_2 m c _ Y' Y).mp hrel]
        exact step m c ⟨t.val - 1, Nat.lt_of_le_of_lt (Nat.sub_le _ _) t.isLt⟩ Y' hY' j
          (by show (j (0 : Fin 2)).val < 1024 * (t.val - 1 + 1); omega)

/-- The last point of the grid. -/
def tLast : Fin cfg0.N := ⟨31, lt_of_lt_of_eq (by norm_num : 31 < 32) N_0.symm⟩

/-- After the last point every row is final. -/
theorem leaves_last (c : Dev nD) (X : (cfg0.win 2).block.Idx → Elt F (cfg0.win 2).elt)
    (h : (rdat m c).Leaves 2 tLast X) : X = result m c := by
  obtain ⟨Y, hF, hrel⟩ := h
  rw [(rel0_2 m c _ Y X).mp hrel]
  funext j
  exact step m c tLast Y (finds_rows m c tLast Y hF) j (by
    have h : (j (0 : Fin 2)).val < 32768 := (j (0 : Fin 2)).isLt
    show (j (0 : Fin 2)).val < 1024 * (31 + 1); omega)

/-- No point before the last writes the output back: until then the array holds its region-entry contents. -/
theorem arrAt_below (c : Dev nD) : ∀ n, n ≤ 31 → (rdat m c).ArrAt 2 n = fun Fb => Fb = (rdat m c).A 2
  | 0, _ => rfl
  | n + 1, h => by
    have hn : n < cfg0.N := lt_of_lt_of_eq (by omega : n < 32) N_0.symm
    have hf : (cfg0.win 2).flush ⟨n, hn⟩ = false := by
      apply eq_false_of_ne_true
      intro hfl
      have : n % 32 = 31 := (flush0_2 _).mp hfl
      omega
    show (if h : n < cfg0.N then (if (cfg0.win 2).flush ⟨n, h⟩ then (rdat m c).ArrStep 2 ⟨n, h⟩ ((rdat m c).ArrAt 2 n) else (rdat m c).ArrAt 2 n) else (rdat m c).ArrAt 2 n) = _
    rw [dif_pos hn, hf, if_neg Bool.false_ne_true]
    exact arrAt_below c n (by omega)

/-- Every index of the array lies in the output window's one block. -/
theorem mem_blk (t : Fin cfg0.N) (i : S32768x64.Idx) : i ∈ ((cfg0.win 2).blk t).view.set := by
  have hm : i ∈ ((cfg0.win 2).blk t).view.set ↔ ∀ a : Fin 2, win0_2.index t a * S32768x64.size a ≤ (i a).val ∧ (i a).val < win0_2.index t a * S32768x64.size a + S32768x64.size a := by
    show i ∈ ((View.whole main_v2).slice (win0_2.rect t)).set ↔ _
    rw [View.set_slice_whole, Rect.mem_set_unit]
    exact Iff.rfl
  rw [hm]
  intro a
  match a with
  | ⟨0, _⟩ =>
    have h : (i (0 : Fin 2)).val < 32768 := (i (0 : Fin 2)).isLt
    show 0 * 32768 ≤ (i (0 : Fin 2)).val ∧ (i (0 : Fin 2)).val < 0 * 32768 + 32768; omega
  | ⟨1, _⟩ =>
    have h : (i (1 : Fin 2)).val < 64 := (i (1 : Fin 2)).isLt
    show 0 * 64 ≤ (i (1 : Fin 2)).val ∧ (i (1 : Fin 2)).val < 0 * 64 + 64; omega

/-- The block's view of the array is the array: it places index `y` at `y`. -/
theorem emb_blk (t : Fin cfg0.N) (y : S32768x64.Idx) : ((cfg0.win 2).blk t).view.emb y = y := by
  funext a; apply Fin.ext
  match a with
  | ⟨0, _⟩ => show 0 * 32768 + 1 * (y (0 : Fin 2)).val = (y (0 : Fin 2)).val; omega
  | ⟨1, _⟩ => show 0 * 64 + 1 * (y (1 : Fin 2)).val = (y (1 : Fin 2)).val; omega

/-- THE ARRAY after the run: whatever contents the relation allows after every write-back are `result`. -/
theorem final (c : Dev nD) (Fb : Buf (Elt F) ((cfg0.win 2).arr.view.loc (c.tc : Thread nD τ)))
    (h : (rdat m c).ArrAt 2 cfg0.N Fb) : Fb = result m c := by
  have h32 : (rdat m c).ArrAt 2 (31 + 1) Fb := by
    have e : cfg0.N = 31 + 1 := N_0
    rw [e] at h; exact h
  have hs : (rdat m c).ArrStep 2 tLast ((rdat m c).ArrAt 2 31) Fb := by
    have hn : 31 < cfg0.N := tLast.isLt
    have hf : (cfg0.win 2).flush ⟨31, hn⟩ = true := (flush0_2 _).mpr rfl
    have h' : (if h : 31 < cfg0.N then (if (cfg0.win 2).flush ⟨31, h⟩ then (rdat m c).ArrStep 2 ⟨31, h⟩ ((rdat m c).ArrAt 2 31) else (rdat m c).ArrAt 2 31) else (rdat m c).ArrAt 2 31) Fb := h32
    rw [dif_pos hn, hf, if_pos rfl] at h'
    exact h'
  obtain ⟨G₀, X, -, hL, rfl⟩ := hs
  rw [leaves_last m c X hL]
  have hcut : (cfg0.win 2).cut (grid0.coords tLast) (result m c) = ((cfg0.win 2).blk tLast).view.read (Elt F) (result m c) := by
    funext y
    rw [View.read_apply, emb_blk]
    rfl
  rw [hcut, View.write_read_eq_piecewise]
  funext i
  exact Finset.piecewise_eq_of_mem _ _ _ (by rw [View.setOn_univ]; exact mem_blk tLast i)

/-! ## The run, read -/

/-- Every weakly fair execution of @main terminates with the result array at `result` and the two argument arrays
    as launched. -/
theorem run : θ_run defs (onTc (τ := τ) (main (F := F))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨final m c _ ((h c).1 2),
      (Eq.mp (congrFun ((rdat m c).ArrAt_in 0 rfl _) _) ((h c).1 0)).trans (V_main_arg0 m c),
      ((h c).2 main_arg1 (Pipeline.mem_restRefs_of main_arg1 (by decide) (by decide))).trans (V_main_arg1 m c)⟩) (run_main m ρ)

end Cert.KernelIdeal.Body

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KernelIdealPayload.lean ====
/-
  The rows of weights one grid point computes, entry by entry, on the extended reals.

  From a block `x` of 1024 token rows and the transposed weight matrix `w` ([4096, 64]) the body forms the logits
  `x · w` (a matrix product into a zero accumulator: entry (p, q) is the sum over the 4096 features of
  x(p, k) · w(k, q); the narrowing of `x` to a shorter float format is the identity on extended reals),
  exponentiates them, sums each row's 64 exponentials (a lane reduction, kept as a column and broadcast back along
  the row) and divides. So entry (p, q) is exp(logit p q) over the sum over `e` of exp(logit p e).
-/
import proofs.«171637_g27230092657639_retrytranche2_103_18_alg».proof.Proof.Gen.KernelIdeal.Skeleton
import proofs.«171637_g27230092657639_retrytranche2_103_18_alg».proof.Proof.LibDot
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The product's dimension numbers are those of a plain rows-by-columns product contracting the 4096 features. -/
theorem plain : Cert.LibDot.Plain (M := 1024) (K := 4096) (N := 64) dot_S1024x4096_S4096x64_S1024x64_1_0_0_1_n_n where
  hrank := rfl
  hs := rfl
  hl0 := fun j k => by
    unfold DotDims.lhsIdx
    rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
    rfl
  hl1 := fun j k => dot_S1024x4096_S4096x64_S1024x64_1_0_0_1_n_n.lhsIdx_val_of_single rfl j k
  hr0 := fun j k => dot_S1024x4096_S4096x64_S1024x64_1_0_0_1_n_n.rhsIdx_val_of_single rfl j k
  hr1 := fun j k => by
    unfold DotDims.rhsIdx
    rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
    rfl

/-- The logits of the block: entry (p, q) of the product of the narrowed token rows with the weight matrix. -/
theorem logits_apply (x : FVec Ideal S1024x4096 .f32) (w : FVec Ideal S4096x64 .bf16) (p : Fin 1024) (q : Fin 64) :
    matmul dot_S1024x4096_S4096x64_S1024x64_1_0_0_1_n_n none (truncf .bf16 x bitsLt_bf16_f32)
        (shapeCast S4096x64 w shapeCasts_S4096x64_S4096x64) (constant (F := Ideal) S1024x64 .f32 0x00000000#32) (ix2 p q)
      = ∑ k : Fin 4096, x (ix2 p k) * w (ix2 k q) := by
  rw [shapeCast_self]
  exact Cert.LibDot.matmul_ix2 plain none (truncf .bf16 x bitsLt_bf16_f32) w p q

/-- A row's sum, kept as a column and broadcast back along the row: entry (p, q) is the sum of row `p`. -/
theorem rowsum_apply (v : FVec Ideal S1024x64 .f32) (p : Fin 1024) (q : Fin 64) :
    broadcastTo S1024x64 (shapeCast S1024x1 (multiReduction (F := Ideal) .add [1] S1024 v 0x00000000#32 reduces_S1024x64_S1024 (.inl rfl) rfl)
        shapeCasts_S1024_S1024x1) broadcasts_S1024x1_S1024x64 (ix2 p q)
      = ∑ e : Fin 64, v (ix2 p e) := by
  rw [broadcastTo_apply _ broadcasts_S1024x1_S1024x64 (ix2 p q) (ix2 p (0 : Fin 1)) (fun a => by
    match a with
    | ⟨0, _⟩ => rfl
    | ⟨1, _⟩ => rfl)]
  rw [shapeCast_apply _ shapeCasts_S1024_S1024x1 (ix2 p (0 : Fin 1)) (ix1 p) (by
    rw [Shape.rowMajor_val_one, Shape.rowMajor_val_two]
    show p.val = p.val * 1 + 0; omega)]
  refine (Ideal.multiReduction_add_single v 0x00000000#32 reduces_S1024x64_S1024 (.inl rfl) rfl (ix1 p)).trans ?_
  refine Finset.sum_congr rfl fun e _ => congrArg v ?_
  funext a; apply Fin.ext
  match a with
  | ⟨0, _⟩ => rfl
  | ⟨1, _⟩ => rfl

/-- THE PAYLOAD at entry (p, q): the exponential of the logit over the sum of the row's exponentials. -/
theorem pay_apply (x : FVec Ideal S1024x4096 .f32) (w : FVec Ideal S4096x64 .bf16) (p : Fin 1024) (q : Fin 64) :
    k0_pay1 (F := Ideal) x w (ix2 p q)
      = Ideal.div (Ideal.exp (∑ k : Fin 4096, x (ix2 p k) * w (ix2 k q)))
          (∑ e : Fin 64, Ideal.exp (∑ k : Fin 4096, x (ix2 p k) * w (ix2 k e))) := by
  unfold k0_pay1
  refine (divf_apply _ _ (ix2 p q)).trans ?_
  refine congrArg₂ Ideal.div ?_ ?_
  · exact congrArg Ideal.exp (logits_apply x w p q)
  · refine (rowsum_apply _ p q).trans ?_
    exact Finset.sum_congr rfl fun e _ => congrArg Ideal.exp (logits_apply x w p e)

end Cert.KernelIdeal.Payload

end
-- ==== Proof.RouterSpec.lean ====
/-
  The router's weights as one function of the two argument arrays, on the extended reals.

  `states` is a [32768, 4096] array of token rows and `W` a [64, 4096] array of expert rows. The logit of
  token `t` for expert `e` is the inner product of row `t` of `states` with row `e` of `W`; the weight of
  expert `e` for token `t` is the exponential of that logit divided by the sum, over the 64 experts, of the
  exponentials of the token's logits: the softmax of the token's row of logits, written without any shift of
  the exponents.
-/
import Mathlib
import Idealize.ShloMosaic.Lib.ValueIdx
import Idealize.ShloMosaic.PureOps.Ideal

noncomputable section

namespace Cert.Router

open Idealize.ShloMosaic Idealize.ShloMosaic.ValueIdx

/-- The logit of token `t` for expert `e`: the sum over the 4096 features of the products of the token's and the
    expert's entries. -/
def logit (x : (⟨2, ![32768, 4096]⟩ : Shape).Idx → EReal) (w : (⟨2, ![64, 4096]⟩ : Shape).Idx → EReal)
    (t : Fin 32768) (e : Fin 64) : EReal :=
  ∑ k : Fin 4096, x (ix2 t k) * w (ix2 e k)

/-- The router's weights: at (t, e) the exponential of the logit over the sum of the exponentials of token `t`'s
    64 logits. -/
def weights (x : (⟨2, ![32768, 4096]⟩ : Shape).Idx → EReal) (w : (⟨2, ![64, 4096]⟩ : Shape).Idx → EReal) :
    (⟨2, ![32768, 64]⟩ : Shape).Idx → EReal :=
  fun i => Ideal.div (Ideal.exp (logit x w (i 0) (i 1))) (∑ e : Fin 64, Ideal.exp (logit x w (i 0) e))

end Cert.Router

end
-- ==== Proof.KernelIdealWeights.lean ====
/-
  The kernel's result array is the router's weights of the two argument arrays.

  Point `t`'s block of window 0 is rows [1024·t, 1024·t + 1024) of `states`: its entry (p, k) is
  states(1024·t + p, k). Window 1 holds, at every point, the whole [4096, 64] matrix the host computed before the
  region: the transpose of `W`, narrowed to a shorter float format (the identity on extended reals); its entry
  (k, e) is W(e, k). So row r = 1024·t + p of the result — row `p` of point `t`'s payload — is at column q
  exp(Σₖ states(r, k) · W(q, k)) over Σₑ exp(Σₖ states(r, k) · W(e, k)): the softmax of token r's logits.
-/
import proofs.«171637_g27230092657639_retrytranche2_103_18_alg».proof.Proof.KernelIdealValue
import proofs.«171637_g27230092657639_retrytranche2_103_18_alg».proof.Proof.KernelIdealPayload
import proofs.«171637_g27230092657639_retrytranche2_103_18_alg».proof.Proof.RouterSpec
import Idealize.ShloMosaic.Lib.StableHlo.Run

set_option maxRecDepth 16384

noncomputable section

namespace Cert.KernelIdeal.Weights

open Cert.KernelIdeal Cert.KernelIdeal.Gen Cert.KernelIdeal.Body Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- The printed index maps, decided over the grid: window 0's block index is (t, 0), window 1's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Entry (p, k) of point `t`'s block of token rows is entry (1024·t + p, k) of `states`. -/
theorem tokens_apply (c : Dev nD) (t : Fin cfg0.N) (p : Fin 1024) (k : Fin 4096) (r : Fin 32768)
    (hr : r.val = 1024 * t.val + p.val) :
    iblk (F := Ideal) m c 0 t (ix2 p k) = m ((c.tc : Thread nD τ).loc main_arg0) (ix2 r k) := by
  obtain ⟨e0, e1, -, -⟩ := idx_facts t
  unfold iblk
  rw [View.read_apply]
  show V m c main_arg0 (((cfg0.win 0).blk t).view.emb (ix2 p k)) = _
  rw [V_main_arg0]
  refine congrArg (m ((c.tc : Thread nD τ).loc main_arg0)) (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- The matrix the host leaves for window 1: the transpose of `W`, narrowed. -/
theorem hostW (c : Dev nD) : (V m c main_v1 : S4096x64.Idx → EReal)
    = (truncf (F := Ideal) .bf16 (transpose S4096x64 [1, 0] (m ((c.tc : Thread nD τ).loc main_arg1) : FVec Ideal S64x4096 .f32)
        transposes_S64x4096_S4096x64_1_0 : FVec Ideal S4096x64 .f32) bitsLt_bf16_f32 : FVec Ideal S4096x64 .bf16) := by
  dsimp only [V, hostOps0]; after_results

/-- Entry (k, e) of window 1's block, at any point, is entry (e, k) of `W`. -/
theorem weightsT_apply (c : Dev nD) (t : Fin cfg0.N) (k : Fin 4096) (e : Fin 64) :
    iblk (F := Ideal) m c 1 t (ix2 k e) = m ((c.tc : Thread nD τ).loc main_arg1) (ix2 e k) := by
  obtain ⟨-, -, e0, e1⟩ := idx_facts t
  unfold iblk
  rw [View.read_apply]
  show V m c main_v1 (((cfg0.win 1).blk t).view.emb (ix2 k e)) = _
  have hemb : ((cfg0.win 1).blk t).view.emb (ix2 k e) = ix2 k e := by
    funext a; apply Fin.ext
    match a with
    | ⟨0, _⟩ => show win0_1.index t (0 : Fin 2) * 4096 + 1 * k.val = k.val; omega
    | ⟨1, _⟩ => show win0_1.index t (1 : Fin 2) * 64 + 1 * e.val = e.val; omega
  rw [hemb, hostW, truncf_apply]
  exact transpose_apply [1, 0] _ transposes_S64x4096_S4096x64_1_0 (ix2 k e) (ix2 e k) (fun b => match b with
    | ⟨0, _⟩ => rfl
    | ⟨1, _⟩ => rfl)

/-- THE RESULT ARRAY is the router's weights of `states` and `W`. -/
theorem result_eq (c : Dev nD) :
    result (F := Ideal) m c = Cert.Router.weights (m ((c.tc : Thread nD τ).loc main_arg0)) (m ((c.tc : Thread nD τ).loc main_arg1)) := by
  funext j
  obtain ⟨r, q, rfl⟩ : ∃ (r : Fin 32768) (q : Fin 64), j = ix2 r q := ⟨j 0, j 1, eq_ix2 j⟩
  have hr : r.val = 1024 * (pointOf (ix2 r q)).val + r.val % 1024 := by
    show r.val = 1024 * (r.val / 1024) + r.val % 1024; omega
  unfold result rowsAt placeOf Cert.Router.weights Cert.Router.logit
  rw [Cert.KernelIdeal.Payload.pay_apply]
  refine congrArg₂ Ideal.div (congrArg Ideal.exp ?_) (Finset.sum_congr rfl fun e _ => congrArg Ideal.exp ?_)
  · refine Finset.sum_congr rfl fun k _ => ?_
    rw [tokens_apply m c _ _ k r hr, weightsT_apply]
  · refine Finset.sum_congr rfl fun k _ => ?_
    rw [tokens_apply m c _ _ k r hr, weightsT_apply]

/-- The kernel's run, read: the result array at the router's weights of the argument arrays, the arguments as
    launched. -/
theorem run : θ_run defs (onTc (τ := τ) (main (F := Ideal))) ⟨m, fun _ => 0, ρ⟩ fun r => ∀ c : Dev nD,
      r.2.mem ((c.tc : Thread nD τ).loc main_v2) = Cert.Router.weights (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq m c), (h c).2⟩) (Cert.KernelIdeal.Body.run m ρ)

end Cert.KernelIdeal.Weights

end
-- ==== Proof.SoftmaxShift.lean ====
/-
  The shift law of the softmax, on the extended reals.

  For a finite nonempty family of exponents that are all real numbers, and a shift that is a real number,
  subtracting the shift from every exponent changes neither numerator nor denominator's ratio:
      exp (l j - M) / (0 + ∑ e, exp (l e - M)) = exp (l j) / ∑ e, exp (l e).
  In the reals exp (a - M) = exp a / exp M, the common factor 1 / exp M leaves the quotient unchanged, and both
  denominators are sums of positive numbers over a nonempty family, hence nonzero. On the extended reals the
  law fails at the infinities (∞ - ∞, ∞ / ∞), which is why every exponent and the shift are asked to be real;
  the statement is carried back from ℝ by pushing the coercion through differences, exponentials, finite sums
  and the quotient by a nonzero real.

  Two facts supply the hypotheses where the law is used. The running maximum of a nonempty finite family of
  reals, started from -∞, is a real (it is at least one member and below +∞). A logit, a finite sum of
  products of real entries, is a real.
-/
import Mathlib
import Idealize.ShloMosaic.PureOps.Ideal
import proofs.«171637_g27230092657639_retrytranche2_103_18_alg».proof.Proof.RouterSpec

noncomputable section

namespace Cert.Router.Softmax

open Idealize.ShloMosaic Idealize.ShloMosaic.ValueIdx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The law in the reals: a common shift of the exponents cancels in the quotient. -/
theorem real_shift {ι : Type*} [Fintype ι] [Nonempty ι] (l : ι → ℝ) (M : ℝ) (j : ι) :
    Real.exp (l j - M) * (1 / ∑ e, Real.exp (l e - M)) = Real.exp (l j) * (1 / ∑ e, Real.exp (l e)) := by
  have hpos : (0 : ℝ) < ∑ e, Real.exp (l e) := Finset.sum_pos (fun e _ => Real.exp_pos _) Finset.univ_nonempty
  have hM : (0 : ℝ) < Real.exp M := Real.exp_pos M
  have hs : ∑ e, Real.exp (l e - M) = (∑ e, Real.exp (l e)) / Real.exp M := by
    rw [Finset.sum_div]; exact Finset.sum_congr rfl fun e _ => Real.exp_sub _ _
  rw [hs, Real.exp_sub]
  field_simp

/-- The quotient of an exponential of a real by a sum of exponentials of reals, from any real offset-free
    denominator: both sides of the law as one coerced real. -/
theorem div_exp_coe {ι : Type*} [Fintype ι] [Nonempty ι] (a : ℝ) (b : ι → ℝ) :
    Ideal.div (Ideal.exp (a : EReal)) (∑ e, Ideal.exp (b e : EReal))
      = ((Real.exp a * (1 / ∑ e, Real.exp (b e)) : ℝ) : EReal) := by
  have hpos : (0 : ℝ) < ∑ e, Real.exp (b e) := Finset.sum_pos (fun e _ => Real.exp_pos _) Finset.univ_nonempty
  have hs : (∑ e, Ideal.exp (b e : EReal)) = ((∑ e, Real.exp (b e) : ℝ) : EReal) := by
    rw [coe_sum]; exact Finset.sum_congr rfl fun e _ => Ideal.exp_coe _
  rw [hs, Ideal.div_coe hpos.ne', Ideal.exp_coe, ← EReal.coe_mul]

/-- The shift law for real exponents and a real shift, on the extended reals. -/
theorem shift_coe {ι : Type*} [Fintype ι] [Nonempty ι] (l : ι → ℝ) (M : ℝ) (j : ι) :
    Ideal.div (Ideal.exp ((l j : EReal) - (M : EReal))) (0 + ∑ e, Ideal.exp ((l e : EReal) - (M : EReal)))
      = Ideal.div (Ideal.exp (l j : EReal)) (∑ e, Ideal.exp (l e : EReal)) := by
  rw [zero_add, div_exp_coe (l j) l]
  have h := div_exp_coe (l j - M) (fun e => l e - M)
  simp only [EReal.coe_sub] at h
  rw [h, real_shift l M j]

/-- The shift law for a family of extended reals each of which is a real, and a shift that is a real. -/
theorem shift {ι : Type*} [Fintype ι] [Nonempty ι] (L : ι → EReal) (M : EReal)
    (hL : ∀ e, ∃ r : ℝ, L e = (r : EReal)) (hM : ∃ r : ℝ, M = (r : EReal)) (j : ι) :
    Ideal.div (Ideal.exp (L j - M)) (0 + ∑ e, Ideal.exp (L e - M))
      = Ideal.div (Ideal.exp (L j)) (∑ e, Ideal.exp (L e)) := by
  choose l hl using hL
  obtain ⟨m, rfl⟩ := hM
  have e : L = fun e => (l e : EReal) := funext hl
  subst e
  exact shift_coe l m j

/-- The running maximum from -∞ of a nonempty finite family of reals is a real. -/
theorem fold_max_real {ι : Type*} [Fintype ι] [Nonempty ι] (L : ι → EReal)
    (hL : ∀ e, ∃ r : ℝ, L e = (r : EReal)) :
    ∃ r : ℝ, (Finset.univ : Finset ι).fold max (⊥ : EReal) L = (r : EReal) := by
  obtain ⟨a⟩ := ‹Nonempty ι›
  obtain ⟨ra, hra⟩ := hL a
  have h1 : L a ≤ (Finset.univ : Finset ι).fold max (⊥ : EReal) L :=
    (Finset.le_fold_max _).2 (Or.inr ⟨a, Finset.mem_univ _, le_rfl⟩)
  have h2 : (Finset.univ : Finset ι).fold max (⊥ : EReal) L < ⊤ :=
    (Finset.fold_max_lt _).2 ⟨bot_lt_top, fun e _ => by obtain ⟨r, hr⟩ := hL e; rw [hr]; exact EReal.coe_lt_top r⟩
  refine ⟨((Finset.univ : Finset ι).fold max (⊥ : EReal) L).toReal, (EReal.coe_toReal h2.ne ?_).symm⟩
  refine ne_of_gt (lt_of_lt_of_le ?_ h1)
  rw [hra]; exact EReal.bot_lt_coe ra

/-- A logit is a real when every entry of both arrays is: a finite sum of products of reals. -/
theorem logit_real (x : (⟨2, ![32768, 4096]⟩ : Shape).Idx → EReal) (w : (⟨2, ![64, 4096]⟩ : Shape).Idx → EReal)
    (hx : ∀ i, ∃ r : ℝ, x i = (r : EReal)) (hw : ∀ i, ∃ r : ℝ, w i = (r : EReal)) (t : Fin 32768) (e : Fin 64) :
    ∃ r : ℝ, logit x w t e = (r : EReal) := by
  choose rx hrx using hx
  choose rw' hrw using hw
  refine ⟨∑ k : Fin 4096, rx (ix2 t k) * rw' (ix2 e k), ?_⟩
  unfold logit
  rw [coe_sum]
  exact Finset.sum_congr rfl fun k _ => by rw [hrx, hrw, EReal.coe_mul]

end Cert.Router.Softmax

end
-- ==== Proof.RefWeights.lean ====
/-
  The reference's result is the router's weights.

  The reference forms the 32768 x 64 array of logits as a matrix product of the token rows with the transposed
  expert rows: entry (t, e) is the sum over the 4096 features of states(t, k) * W(e, k). Along each token's
  row it takes the running maximum of the 64 logits from -∞, and the larger of that and -∞ once more; it
  subtracts this row maximum from every logit of the row, exponentiates, sums the 64 exponentials of the
  row from 0, and divides each exponential by its row's sum.

  When every entry of both arrays is a real number, every logit is a real and so is each row's maximum (a
  maximum of 64 reals); the shift law of the softmax then says that the quotient is the one written without
  the shift: exp(logit(t, e)) over the sum of the exp(logit(t, e')).
-/
import proofs.«171637_g27230092657639_retrytranche2_103_18_alg».proof.Proof.Gen.ReferenceIdeal.Read
import proofs.«171637_g27230092657639_retrytranche2_103_18_alg».proof.Proof.RouterSpec
import proofs.«171637_g27230092657639_retrytranche2_103_18_alg».proof.Proof.SoftmaxShift

noncomputable section

namespace Cert.Router.RefValue

open Cert.ReferenceIdeal Cert.ReferenceIdeal.Gen Cert.ReferenceIdeal.Read Idealize.ShloMosaic Idealize.ShloMosaic.ValueIdx

/-- The pattern 0xFF800000 of the 32-bit format denotes -∞. -/
theorem neg_inf : FloatOps.ofBits (F := Ideal) .f32 0xFF800000#32 = (⊥ : EReal) := by
  simp [Ideal.ofBits, Ideal.ieee]

/-- The all-zero pattern of the 32-bit format denotes 0. -/
theorem zero_word : FloatOps.ofBits (F := Ideal) .f32 0x00000000#32 = (0 : EReal) := by
  simp [Ideal.ofBits, Ideal.ieee]

/-- The product's entry (t, e) is the logit of token t for expert e: the transposed expert array read at
    (k, e) is W at (e, k). -/
theorem logits (x : FVec Ideal S32768x4096 .f32) (w : FVec Ideal S64x4096 .f32) (t : Fin 32768) (e : Fin 64) :
    val_main_v1 (F := Ideal) x w (ix2 t e) = Cert.Router.logit x w t e := by
  rw [val_main_v1_apply]
  unfold Cert.Router.logit
  refine Finset.sum_congr rfl fun k _ => ?_
  rw [val_main_v0_apply]
  have el : lidx_main_v1 (ix2 t e) k = ix2 t k :=
    funext fun a => Fin.ext (by match a with | ⟨0, _⟩ => rfl | ⟨1, _⟩ => rfl)
  have er : idx_main_v0 (ridx_main_v1 (ix2 t e) k) = ix2 e k :=
    funext fun a => Fin.ext (by match a with | ⟨0, _⟩ => rfl | ⟨1, _⟩ => rfl)
  rw [el, er]

/-- The logits' array loses its second axis under the row reduction. -/
theorem reduces : S32768x64.Reduces [1] S32768 := by decide

/-- Row t of the reduced array with column k put back is (t, k). -/
theorem lift_row (t : Fin 32768) (k : Fin (S32768x64.size 1)) :
    reduces.lift (ix1 t) k = ix2 t (⟨k.val, k.isLt⟩ : Fin 64) := by
  funext c; apply Fin.ext
  fin_cases c <;> rfl

/-- The shift the reference subtracts from row t: the larger of -∞ and the running maximum, from -∞, of the
    row's 64 logits. -/
def rowShift (x : FVec Ideal S32768x4096 .f32) (w : FVec Ideal S64x4096 .f32) (t : Fin 32768) : EReal :=
  max (⊥ : EReal) ((Finset.univ : Finset (Fin 64)).fold max (⊥ : EReal) fun e => Cert.Router.logit x w t e)

/-- The reference's row maximum at t is that shift. -/
theorem rowmax (x : FVec Ideal S32768x4096 .f32) (w : FVec Ideal S64x4096 .f32) (t : Fin 32768) :
    val_main_v4 (F := Ideal) x w (ix1 t) = rowShift x w t := by
  rw [val_main_v4_apply, val_main_v3_apply, val_main_cst_0_apply, neg_inf]
  unfold val_main_v2
  rw [Host.reduce_eq_fold_single FloatOps.maximumf _ _ reducesTo_S32768x64_S32768_d1 reduces h_S_,
    val_main_cst_apply, neg_inf]
  have hf : (val_main_v1 (F := Ideal) x w ∘ reduces.lift (ix1 t)) = fun e : Fin 64 => Cert.Router.logit x w t e :=
    funext fun k => by
      show val_main_v1 (F := Ideal) x w (reduces.lift (ix1 t) k) = _
      rw [lift_row]; exact logits x w t _
  unfold rowShift
  exact congrArg (fun f => max (⊥ : EReal) (Finset.fold max (⊥ : EReal) f (Finset.univ : Finset (Fin 64)))) hf

/-- The exponential stage at (t, e): the exponential of the logit less the row's shift. -/
theorem shifted (x : FVec Ideal S32768x4096 .f32) (w : FVec Ideal S64x4096 .f32) (t : Fin 32768) (e : Fin 64) :
    val_main_v8 (F := Ideal) x w (ix2 t e) = Ideal.exp (Cert.Router.logit x w t e - rowShift x w t) := by
  have hi : idx_main_v5 (idx_main_v6 (ix2 t e)) = ix1 t :=
    funext fun a => Fin.ext (by match a with | ⟨0, _⟩ => rfl)
  rw [val_main_v8_apply, val_main_v7_apply, val_main_v6_apply, val_main_v5_apply, hi, rowmax, logits]
  rfl

/-- The row sum at t: from 0, the sum of the row's 64 shifted exponentials. -/
theorem denom (x : FVec Ideal S32768x4096 .f32) (w : FVec Ideal S64x4096 .f32) (t : Fin 32768) :
    val_main_v9 (F := Ideal) x w (ix1 t)
      = 0 + ∑ e : Fin 64, Ideal.exp (Cert.Router.logit x w t e - rowShift x w t) := by
  rw [val_main_v9_apply, val_main_cst_1_apply, zero_word]
  refine congrArg ((0 : EReal) + ·) (Finset.sum_congr rfl fun k _ => ?_)
  have hi : idx_main_v9 (ix1 t) k = ix2 t k :=
    funext fun a => Fin.ext (by match a with | ⟨0, _⟩ => rfl | ⟨1, _⟩ => rfl)
  rw [hi, shifted]

/-- The reference's quotient at (t, e), before the shift law. -/
theorem quotient (x : FVec Ideal S32768x4096 .f32) (w : FVec Ideal S64x4096 .f32) (t : Fin 32768) (e : Fin 64) :
    val_main_v12 (F := Ideal) x w (ix2 t e)
      = Ideal.div (Ideal.exp (Cert.Router.logit x w t e - rowShift x w t))
          (0 + ∑ e' : Fin 64, Ideal.exp (Cert.Router.logit x w t e' - rowShift x w t)) := by
  have hi : idx_main_v10 (idx_main_v11 (ix2 t e)) = ix1 t :=
    funext fun a => Fin.ext (by match a with | ⟨0, _⟩ => rfl)
  rw [val_main_v12_apply, val_main_v11_apply, val_main_v10_apply, hi, denom, shifted]
  rfl

/-- With real entries the row's shift is a real number. -/
theorem rowShift_real (x : FVec Ideal S32768x4096 .f32) (w : FVec Ideal S64x4096 .f32)
    (hx : ∀ i, ∃ r : ℝ, x i = (r : EReal)) (hw : ∀ i, ∃ r : ℝ, w i = (r : EReal)) (t : Fin 32768) :
    ∃ r : ℝ, rowShift x w t = (r : EReal) := by
  unfold rowShift
  rw [max_eq_right bot_le]
  exact Softmax.fold_max_real (fun e : Fin 64 => Cert.Router.logit x w t e) fun e => Softmax.logit_real x w hx hw t e

/-- The reference's result, as the stages compose it, is the router's weights when every entry is real. -/
theorem ref_eq_weights (x : FVec Ideal S32768x4096 .f32) (w : FVec Ideal S64x4096 .f32)
    (hx : ∀ i, ∃ r : ℝ, x i = (r : EReal)) (hw : ∀ i, ∃ r : ℝ, w i = (r : EReal)) :
    val_main_v12 (F := Ideal) x w = Cert.Router.weights x w := by
  funext i
  obtain ⟨t, e, rfl⟩ : ∃ (t : Fin 32768) (e : Fin 64), i = ix2 t e := ⟨i 0, i 1, eq_ix2 i⟩
  rw [quotient]
  exact Softmax.shift (fun e' : Fin 64 => Cert.Router.logit x w t e') (rowShift x w t)
    (fun e' => Softmax.logit_real x w hx hw t e') (rowShift_real x w hx hw t) e

/-- The same, for the term the reference's run states for its result. -/
theorem ref_term_eq_weights (x : FVec Ideal S32768x4096 .f32) (w : FVec Ideal S64x4096 .f32)
    (hx : ∀ i, ∃ r : ℝ, x i = (r : EReal)) (hw : ∀ i, ∃ r : ℝ, w i = (r : EReal)) :
    Host.divf (Host.exp (subf (Host.dotGeneral dot_S32768x4096_S4096x64_S32768x64_1_0_0_1_n_n none x (transpose S4096x64 [1, 0] w transposes_S64x4096_S4096x64_1_0)) (broadcastInDim S32768x64 ![0, 1] bcast_S32768x1_S32768x64_0_1 (broadcastInDim S32768x1 ![0] bcast_S32768_S32768x1_0 (maximumf (broadcastInDim S32768 ![] bcast_S_S32768 (constant (F := Ideal) S_ .f32 0xFF800000#32)) (Host.reduce FloatOps.maximumf (Host.dotGeneral dot_S32768x4096_S4096x64_S32768x64_1_0_0_1_n_n none x (transpose S4096x64 [1, 0] w transposes_S64x4096_S4096x64_1_0)) (constant (F := Ideal) S_ .f32 0xFF800000#32) reducesTo_S32768x64_S32768_d1 h_S_)))))) (broadcastInDim S32768x64 ![0, 1] bcast_S32768x1_S32768x64_0_1 (broadcastInDim S32768x1 ![0] bcast_S32768_S32768x1_0 (Host.reduceAdd (Host.exp (subf (Host.dotGeneral dot_S32768x4096_S4096x64_S32768x64_1_0_0_1_n_n none x (transpose S4096x64 [1, 0] w transposes_S64x4096_S4096x64_1_0)) (broadcastInDim S32768x64 ![0, 1] bcast_S32768x1_S32768x64_0_1 (broadcastInDim S32768x1 ![0] bcast_S32768_S32768x1_0 (maximumf (broadcastInDim S32768 ![] bcast_S_S32768 (constant (F := Ideal) S_ .f32 0xFF800000#32)) (Host.reduce FloatOps.maximumf (Host.dotGeneral dot_S32768x4096_S4096x64_S32768x64_1_0_0_1_n_n none x (transpose S4096x64 [1, 0] w transposes_S64x4096_S4096x64_1_0)) (constant (F := Ideal) S_ .f32 0xFF800000#32) reducesTo_S32768x64_S32768_d1 h_S_)))))) (constant (F := Ideal) S_ .f32 0x00000000#32) reducesTo_S32768x64_S32768_d1 h_S_)))
      = Cert.Router.weights x w :=
  (val_main_v12_eq (F := Ideal) x w).trans (ref_eq_weights x w hx hw)

end Cert.Router.RefValue

end
-- ==== Proof.FiniteInputs.lean ====
/-
  From the precondition to "every entry is a real number".

  The precondition compares the absolute value of every entry of both arrays with +∞ (strictly below) and
  takes the conjunction of all the answers: a reduction by "and" over every axis of each array, from the
  constant true, and the "and" of the two results. That the outcome is true gives the comparison at every
  index of both arrays. On the extended reals |x| is the larger of x and -x, so |x| < +∞ excludes x = +∞
  (where |x| = +∞) and x = -∞ (where -x = +∞): what is left is a real number.
-/
import proofs.«171637_g27230092657639_retrytranche2_103_18_alg».proof.Pre_finite_inputs
import Idealize.ShloMosaic.Lib.ReduceAll
import Idealize.ShloMosaic.Lib.ValueIdx
import Idealize.ShloMosaic.PureOps.Ideal.Laws

noncomputable section

namespace Cert.Router.Finite

open Idealize.ShloMosaic Idealize.ShloMosaic.ValueIdx

/-- The scalar shape has one index. -/
instance : Subsingleton Cert.Pre_finite_inputs.S_.Idx := ⟨fun a b => funext fun d => d.elim0⟩

/-- The pattern 0x7F800000 of the 32-bit format denotes +∞. -/
theorem ofBits_pos_inf : Ideal.ofBits .f32 0x7F800000#32 = (⊤ : EReal) := by
  simp [Ideal.ofBits, Ideal.ieee]

/-- An extended real whose absolute value is strictly below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison word "|x| < +∞" being true says that x is a real number. -/
theorem real_of_cmp (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  refine real_of_abs_lt_top x ?_
  have h' : Ideal.cmp .olt (max x (-x)) (Ideal.ofBits .f32 0x7F800000#32) = 1#1 := h
  rw [ofBits_pos_inf] at h'
  by_contra hn
  simp [Ideal.cmp, hn] at h'

/-- Under the precondition every entry of both arrays is a real number. -/
theorem of_pre [Cert.Pre_finite_inputs.Facts] (x : FVec Ideal Cert.Pre_finite_inputs.S32768x4096 .f32)
    (w : FVec Ideal Cert.Pre_finite_inputs.S64x4096 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ix0
  dsimp only [Cert.Pre_finite_inputs.fn] at h0
  obtain ⟨ha, hb⟩ := IntOp.andi_eq_one.1 h0
  refine ⟨fun i => real_of_cmp (x i) ?_, fun i => real_of_cmp (w i) ?_⟩
  · exact Host.reduce_andi_all _ _ _ _ ix0 ha i
  · exact Host.reduce_andi_all _ _ _ _ ix0 hb i

end Cert.Router.Finite

end
-- ==== Proof.lean ====
/-
  A fused router kernel against its reference: softmax(states · Wᵀ) over f32[32768, 4096] × f32[64, 4096].

  The kernel streams `states` in 32 blocks of 1024 token rows, multiplies each block by the transposed weight
  matrix, exponentiates the logits and divides each row by the sum of its 64 exponentials — with NO subtraction of
  the row's maximum — writing each block's rows into a [32768, 64] buffer that stays resident and is copied out once
  at the end. The reference is jax.nn.softmax of the same logits: it subtracts each row's maximum before the
  exponential. On the extended reals the two agree exactly when every logit is a real number: for real l₁ … l₆₄ and
  a real M, exp(lⱼ − M) / Σₑ exp(lₑ − M) = exp(lⱼ) / Σₑ exp(lₑ), since exp(l − M) = exp(l) · exp(−M) with exp(−M) a
  positive real. That is where the precondition is used: finite inputs make every logit — a finite sum of products of
  reals — real, hence the row maximum real (with an infinite logit the shifted and unshifted forms differ).

  The parts: the three frames (the two kernels' by the body's run at every grid point under a relation saying what
  each point leaves in the resident output buffer; the reference's from its run), the idealization (no rewrite was
  applied, nothing to show), and the equality of results: the kernel's result array is `Cert.Router.weights` of
  the arguments (row r is row r mod 1024 of the rows point r / 1024 computes), and so is the reference's.
-/
import proofs.«171637_g27230092657639_retrytranche2_103_18_alg».proof.Defs
import proofs.«171637_g27230092657639_retrytranche2_103_18_alg».proof.Proof.Gen.Kernel
import proofs.«171637_g27230092657639_retrytranche2_103_18_alg».proof.Proof.Gen.KernelIdeal
import proofs.«171637_g27230092657639_retrytranche2_103_18_alg».proof.Proof.Gen.ReferenceIdeal
import proofs.«171637_g27230092657639_retrytranche2_103_18_alg».proof.Proof.Gen.ReferenceIdeal.Run
import proofs.«171637_g27230092657639_retrytranche2_103_18_alg».proof.Proof.Gen.ReferenceIdeal.Read
import proofs.«171637_g27230092657639_retrytranche2_103_18_alg».proof.Proof.Gen.Pre_finite_inputs
import proofs.«171637_g27230092657639_retrytranche2_103_18_alg».proof.Proof.KernelData
import proofs.«171637_g27230092657639_retrytranche2_103_18_alg».proof.Proof.KernelIdealData
import proofs.«171637_g27230092657639_retrytranche2_103_18_alg».proof.Proof.KernelIdealWeights
import proofs.«171637_g27230092657639_retrytranche2_103_18_alg».proof.Proof.RefWeights
import proofs.«171637_g27230092657639_retrytranche2_103_18_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs, and leaves its two argument arrays as launched. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end with the router's weights of those arguments:
    the kernel's unshifted softmax by its run read row by row, the reference's shifted one by the shift law, every
    logit being real. -/
theorem algebraic : Cert.algebraic_KernelIdeal_ReferenceIdeal := by
  intro m ρ m' ρ' hpre hagree
  refine ⟨fun c => Cert.Router.weights (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Weights.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Router.Finite.of_pre _ _ (hpre c)
  rw [(hagree c).1, (hagree c).2]
  exact Cert.Router.RefValue.ref_term_eq_weights _ _ hx hw

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
